-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x63 : Shape := ⟨2, ![1048576, 63]⟩
abbrev S_ : Shape := ⟨0, ![]⟩

class Facts : Prop where
  bcast_S_S1048576x63 : S_.BroadcastsInDim S1048576x63 (![] : Fin 0 → Fin S1048576x63.rank)
  reducesTo_S1048576x63_S_d0_1 : S1048576x63.ReducesTo [0, 1] S_
  h_S_ : 0 < S_.numel

variable [Facts]

def fn {F : FTy → Type} [FloatOps F] (main_arg0 : FVec F S1048576x63 .f32) (main_arg1 : FVec F S1048576x63 .f32) : IVec S_ 1 :=
  let main_v0 : FVec F S1048576x63 .f32 := Host.absf main_arg0
  let main_cst : FVec F S_ .f32 := constant S_ .f32 0x7F800000#32
  let main_v1 : FVec F S1048576x63 .f32 := broadcastInDim S1048576x63 ![] bcast_S_S1048576x63 main_cst
  let main_v2 : IVec S1048576x63 1 := cmpf .olt main_v0 main_v1
  let main_c : IVec S_ 1 := constantI S_ 1 1#1
  let main_v3 : IVec S_ 1 := (fun x v => Host.reduce IntOp.andi x v reducesTo_S1048576x63_S_d0_1 h_S_) main_v2 main_c
  let main_v4 : FVec F S1048576x63 .f32 := Host.absf main_arg1
  let main_cst_0 : FVec F S_ .f32 := constant S_ .f32 0x7F800000#32
  let main_v5 : FVec F S1048576x63 .f32 := broadcastInDim S1048576x63 ![] bcast_S_S1048576x63 main_cst_0
  let main_v6 : IVec S1048576x63 1 := cmpf .olt main_v4 main_v5
  let main_c_1 : IVec S_ 1 := constantI S_ 1 1#1
  let main_v7 : IVec S_ 1 := (fun x v => Host.reduce IntOp.andi x v reducesTo_S1048576x63_S_d0_1 h_S_) main_v6 main_c_1
  let main_v8 : IVec S_ 1 := andi main_v3 main_v7
  main_v8
-- ==== Kernel.lean ====
abbrev S1048576x63 : Shape := ⟨2, ![1048576, 63]⟩
abbrev S1x1 : Shape := ⟨2, ![1, 1]⟩
abbrev S16384x63 : Shape := ⟨2, ![16384, 63]⟩
abbrev S16384x21x3 : Shape := ⟨3, ![16384, 21, 3]⟩
abbrev S16384x21 : Shape := ⟨2, ![16384, 21]⟩
abbrev S1x16384x21 : Shape := ⟨3, ![1, 16384, 21]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S1048576x63, .f32⟩
  | .hbm, ⟨1, _⟩ => ⟨S1048576x63, .f32⟩
  | .hbm, ⟨2, _⟩ => ⟨S1x1, .f32⟩
  | .hbm, ⟨3, _⟩ => ⟨S_, .f32⟩
  | .local _ .vmem, ⟨0, _⟩ => ⟨S16384x63, .f32⟩
  | .local _ .vmem, ⟨1, _⟩ => ⟨S16384x63, .f32⟩
  | .local _ .vmem, ⟨2, _⟩ => ⟨S16384x63, .f32⟩
  | .local _ .vmem, ⟨3, _⟩ => ⟨S16384x63, .f32⟩
  | .local _ .vmem, ⟨4, _⟩ => ⟨S1x1, .f32⟩
  | .local _ .vmem, ⟨5, _⟩ => ⟨S1x1, .f32⟩
  | _, _ => ⟨S1048576x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v20 : BitVec 1 := Scalar.cmpi .eq arg0 c63_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x63_S16384x63_0_0 : ∀ a, (![0, 0] : Fin 2 → Nat) a + S16384x63.size a ≤ S16384x63.size a
  h_S16384x63 : 0 < S16384x63.numel
  shapeCasts_S16384x63_S16384x21x3 : S16384x63.ShapeCasts S16384x21x3
  reduces_S16384x21x3_S16384x21 : S16384x21x3.Reduces [2] S16384x21
  shapeCasts_S16384x21_S1x16384x21 : S16384x21.ShapeCasts S1x16384x21
  reduces_S1x16384x21_S1 : S1x16384x21.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x63.size a ≤ S1048576x63.size a
  hwx0_0 : ∀ i : grid0.Coords, EltTy.bits .f32 = 32 ∨ (Rect.block (s := S1048576x63) S16384x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x63.size a ≤ S1048576x63.size a
  hwx0_1 : ∀ i : grid0.Coords, EltTy.bits .f32 = 32 ∨ (Rect.block (s := S1048576x63) S16384x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16384x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x63 : Shape := ⟨2, ![1048576, 63]⟩
abbrev S1048576x21x3 : Shape := ⟨3, ![1048576, 21, 3]⟩
abbrev S_ : Shape := ⟨0, ![]⟩
abbrev S1048576x21 : Shape := ⟨2, ![1048576, 21]⟩

abbrev nBuf : Space → Nat
  | .hbm => 13
  | .vmem => 0
  | .smem => 0
  | _ => 0

abbrev bufTy : (tb : Table) → Fin (tcTables nBuf tb) → BufTy
  | .hbm, ⟨0, _⟩ => ⟨S1048576x63, .f32⟩
  | .hbm, ⟨1, _⟩ => ⟨S1048576x63, .f32⟩
  | .hbm, ⟨2, _⟩ => ⟨S1048576x21x3, .f32⟩
  | .hbm, ⟨3, _⟩ => ⟨S1048576x21x3, .f32⟩
  | .hbm, ⟨4, _⟩ => ⟨S1048576x21x3, .f32⟩
  | .hbm, ⟨5, _⟩ => ⟨S1048576x21x3, .f32⟩
  | .hbm, ⟨6, _⟩ => ⟨S_, .f32⟩
  | .hbm, ⟨7, _⟩ => ⟨S1048576x21, .f32⟩
  | .hbm, ⟨8, _⟩ => ⟨S1048576x21, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S1048576x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S1048576x63_S1048576x21x3 : S1048576x63.ShapeCasts S1048576x21x3
  reducesTo_S1048576x21x3_S1048576x21_d2 : S1048576x21x3.ReducesTo [2] S1048576x21
  h_S_ : 0 < S_.numel
  reducesTo_S1048576x21_S_d0_1 : S1048576x21.ReducesTo [0, 1] S_

variable [Facts₀]

class Facts : Prop extends Facts₀ where

variable [Facts]
-- ==== Proof.Pieces.lean ====
/-
  What one run of the kernel body leaves behind, as values. The body keeps a one-element running total in a
  scratch cell. At the first grid point it stores zero there, reads it back and stores total + block sum; at the
  middle points it reads the total the previous point left and stores total + block sum; at the last point it does
  the same and then stores the new total divided by the count into the output cell. Each statement below says that
  the contents found after the body are the body's arithmetic (one pure term per store) applied to the input
  blocks and to the total found: every load reads a whole buffer and every store overwrites a whole buffer, so the
  last store decides the contents.
-/
import proofs.«120796_j60129542194_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Both buffers are read and written from offset (0, 0). -/
theorem hz : (![0, 0] : Fin 2 → Nat) = fun _ => 0 := funext fun a => by fin_cases a <;> rfl

/-- A middle point: the scratch cell ends at the body's sum term of the two input blocks and the total found. -/
theorem sout_B (c : Dev nD) (i : grid0.Coords) (a1 : Memref sig .tc .vmem S16384x63 .f32) (h1 : a1.IsWhole)
    (a2 : Memref sig .tc .vmem S16384x63 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S16384x63 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S16384x63) hz, View.ld_unit_zero (S := S1x1) hz]

/-- The last point: the scratch cell ends at the same term. -/
theorem sout_C (c : Dev nD) (i : grid0.Coords) (a1 : Memref sig .tc .vmem S16384x63 .f32) (h1 : a1.IsWhole)
    (a2 : Memref sig .tc .vmem S16384x63 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16384x63 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S16384x63) hz, View.ld_unit_zero (S := S1x1) hz]

/-- The last point: the output cell ends at the quotient term of the scratch cell's new contents. -/
theorem out_C (c : Dev nD) (i : grid0.Coords) (a1 : Memref sig .tc .vmem S16384x63 .f32) (h1 : a1.IsWhole)
    (a2 : Memref sig .tc .vmem S16384x63 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16384x63 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S16384x63) hz, View.ld_unit_zero (S := S1x1) hz]

/-- The first point: the scratch cell ends at the sum term over the zero the body stored first. -/
theorem sout_A (c : Dev nD) (i : grid0.Coords) (a1 : Memref sig .tc .vmem S16384x63 .f32) (h1 : a1.IsWhole)
    (a2 : Memref sig .tc .vmem S16384x63 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S16384x63 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, View.ld_unit_zero (S := S16384x63) hz, View.ld_unit_zero (S := S1x1) hz]

end Cert.KernelIdeal.Pieces

end
-- ==== Proof.Spec.lean ====
/-
  The mathematics both programs compute, on the extended reals. A row of 63 numbers is 21 joints of 3 coordinates;
  a joint's distance between two rows is the square root of the sum of its three squared coordinate differences;
  the loss is the sum of all joint distances over all rows, divided by a constant. Addition of extended reals is
  commutative and associative (no finiteness is needed), so the sum over 1048576 rows is the sum, over 64
  consecutive blocks of 16384 rows, of each block's sum — and a running total started at zero and fed one
  block's sum at a time ends at that sum.
-/
import Idealize.ShloMosaic.PureOps.Ideal
import Idealize.ShloMosaic.PureOps.Ideal.Laws
import Idealize.ShloMosaic.Lib.ValueIdx

noncomputable section

open scoped BigOperators

namespace Cert.JointDist

open Idealize.ShloMosaic Idealize.ShloMosaic.ValueIdx

/-- Coordinate `k` of joint `j` sits at column `3 j + k` of a row. -/
abbrev col (j : Fin 21) (k : Fin 3) : Fin 63 := ⟨3 * j.val + k.val, by omega⟩

/-- The squared difference of two numbers. -/
def sqd (a b : EReal) : EReal := (a - b) * (a - b)

/-- One joint's Euclidean distance between the rows `p` and `q`. -/
def joint (p q : Fin 63 → EReal) (j : Fin 21) : EReal :=
  Ideal.sqrt (∑ k : Fin 3, sqd (p (col j k)) (q (col j k)))

/-- The sum of every joint's distance over `n` rows. -/
def rowsSum (n : ℕ) (P Q : Fin n → Fin 63 → EReal) : EReal :=
  ∑ r : Fin n, ∑ j : Fin 21, joint (P r) (Q r) j

/-- Row `r` of block `t` is row `16384 t + r` of the whole array. -/
abbrev brow (t : Fin 64) (r : Fin 16384) : Fin 1048576 := ⟨t.val * 16384 + r.val, by omega⟩

/-- The rows of the whole array are the rows of the 64 blocks. -/
def browEquiv : Fin 64 × Fin 16384 ≃ Fin 1048576 where
  toFun p := brow p.1 p.2
  invFun r := (⟨r.val / 16384, by omega⟩, ⟨r.val % 16384, by omega⟩)
  left_inv := by
    rintro ⟨t, r⟩
    refine Prod.ext (Fin.ext ?_) (Fin.ext ?_)
    · show (t.val * 16384 + r.val) / 16384 = t.val; omega
    · show (t.val * 16384 + r.val) % 16384 = r.val; omega
  right_inv := by
    intro r
    refine Fin.ext ?_
    show r.val / 16384 * 16384 + r.val % 16384 = r.val; omega

/-- A sum over all rows is the sum over the blocks of the sum over each block's rows. -/
theorem sum_rows_blocks (f : Fin 1048576 → EReal) : ∑ r, f r = ∑ t : Fin 64, ∑ r : Fin 16384, f (brow t r) := by
  rw [← Equiv.sum_comp browEquiv f, Fintype.sum_prod_type]
  rfl

/-- The whole array's sum of joint distances is the sum of the 64 blocks' sums. -/
theorem rowsSum_blocks (P Q : Fin 1048576 → Fin 63 → EReal) :
    rowsSum 1048576 P Q = ∑ t : Fin 64, rowsSum 16384 (fun r => P (brow t r)) (fun r => Q (brow t r)) := by
  unfold rowsSum
  exact sum_rows_blocks _

/-- The running total after step `n`: started at zero and fed `f 0`, then `f 1`, …, `f n`, each added on the right. -/
def running (f : ℕ → EReal) : ℕ → EReal
  | 0 => 0 + f 0
  | n + 1 => running f n + f (n + 1)

/-- It is the sum of the first `n + 1` terms. -/
theorem running_eq_sum (f : ℕ → EReal) : ∀ n, running f n = ∑ i ∈ Finset.range (n + 1), f i
  | 0 => by simp [running]
  | n + 1 => by rw [running, running_eq_sum f n, Finset.sum_range_succ _ (n + 1)]

/-- The divisor both programs use: the float word of 22020096 = 1048576 · 21, never evaluated. -/
abbrev count : EReal := Ideal.ofBits .f32 0x4BA80000#32

/-- The loss: the mean joint distance. -/
def loss (P Q : Fin 1048576 → Fin 63 → EReal) : EReal := Ideal.div (rowsSum 1048576 P Q) count

end Cert.JointDist

end
-- ==== Proof.PayIdeal.lean ====
/-
  The body's arithmetic read at the ideal instance, where every float operation is the exact one on the extended
  reals. One block is 16384 rows of 63 numbers. The body subtracts the two blocks, squares, regroups each row's
  63 squares as 21 joints of 3, sums each joint's three squares, takes square roots, sums all 16384 × 21 roots
  into one number, and adds it to the running total it found. Read at an index: the total found plus the block's
  sum of joint distances.
-/
import proofs.«120796_j60129542194_1_alg».proof.Proof.Gen.KernelIdeal.Skeleton
import proofs.«120796_j60129542194_1_alg».proof.Proof.Spec
import Idealize.ShloMosaic.Lib.Pipeline.Value
import Idealize.ShloMosaic.PureOps.Ideal.Laws
import Idealize.ShloMosaic.Lib.ValueIdx

noncomputable section

open scoped BigOperators
open Idealize.ShloMosaic Idealize.ShloMosaic.ValueIdx

namespace Cert.KernelIdeal.Pay

open Cert.KernelIdeal Cert.KernelIdeal.Gen Cert.JointDist

/-- A sum over a reshaped array is the sum over the array: the reshape only renames the indices. -/
theorem sum_shapeCast {s t : Shape} (x : s.Idx → EReal) (h : s.ShapeCasts t) :
    ∑ j : t.Idx, shapeCast t x h j = ∑ i : s.Idx, x i :=
  Equiv.sum_comp (Shape.reshapeEquiv h) x

/-- The one element of a one-element vector, viewed as 1×1×1 and extracted at (0, 0, 0). -/
theorem extract_apply (w : FVec Ideal S1 .f32) :
    extractAt ![0, 0, 0] (shapeCast S1x1x1 w shapeCasts_S1_S1x1x1) inpos_S1x1x1_p0_0_0 = w (ix1 (0 : Fin 1)) := by
  unfold extractAt
  refine shapeCast_apply w shapeCasts_S1_S1x1x1 _ (ix1 (0 : Fin 1)) ?_
  rw [Shape.rowMajor_val_one, Shape.rowMajor_val_three]
  rfl

/-- The sum over both long axes of a 1×16384×21 array, into one element, is the sum of all its entries. -/
theorem total_apply (v : FVec Ideal S1x16384x21 .f32) :
    multiReduction (F := Ideal) .add [1, 2] S1 v 0x00000000#32 reduces_S1x16384x21_S1 (.inl rfl) rfl (ix1 (0 : Fin 1)) = ∑ i, v i :=
  Ideal.multiReduction_add_total v 0x00000000#32 reduces_S1x16384x21_S1 (fun b => by fin_cases b; rfl) (.inl rfl) rfl _

/-- Row `r`, joint `j` of the block's squared differences summed over the joint's three coordinates: the reshape
    16384×63 → 16384×21×3 puts coordinate `k` of joint `j` at column `3 j + k`. -/
theorem sumsq_apply (x0 x1 : FVec Ideal S16384x63 .f32) (r : Fin 16384) (j : Fin 21) :
    multiReduction (F := Ideal) .add [2] S16384x21 (shapeCast S16384x21x3 (mulf (subf x0 x1) (subf x0 x1)) shapeCasts_S16384x63_S16384x21x3)
        0x00000000#32 reduces_S16384x21x3_S16384x21 (.inl rfl) rfl (ix2 r j)
      = ∑ k : Fin 3, sqd (x0 (ix2 r (col j k))) (x1 (ix2 r (col j k))) := by
  refine (Ideal.multiReduction_add_single _ 0x00000000#32 reduces_S16384x21x3_S16384x21 (.inl rfl) rfl (ix2 r j)).trans ?_
  refine Finset.sum_congr rfl fun k _ => ?_
  refine (shapeCast_apply _ shapeCasts_S16384x63_S16384x21x3 _ (ix2 r (col j k)) ?_).trans rfl
  rw [Shape.rowMajor_val_two, Shape.rowMajor_val_three]
  show r.val * 63 + (3 * j.val + k.val) = (r.val * 21 + j.val) * 3 + k.val
  omega

/-- The vector square root, read at an index. -/
theorem sqrt_apply {s : Shape} (V : FVec Ideal s .f32) (i : s.Idx) : sqrt (F := Ideal) V i = Ideal.sqrt (V i) := rfl

/-- Row `r`, joint `j` of the block's distances. -/
theorem dist_apply (x0 x1 : FVec Ideal S16384x63 .f32) (r : Fin 16384) (j : Fin 21) :
    sqrt (F := Ideal) (multiReduction (F := Ideal) .add [2] S16384x21 (shapeCast S16384x21x3 (mulf (subf x0 x1) (subf x0 x1)) shapeCasts_S16384x63_S16384x21x3)
        0x00000000#32 reduces_S16384x21x3_S16384x21 (.inl rfl) rfl) (ix2 r j)
      = joint (fun c => x0 (ix2 r c)) (fun c => x1 (ix2 r c)) j := by
  refine (sqrt_apply _ _).trans ?_
  rw [sumsq_apply]
  rfl

/-- The body's sum term, at the ideal instance, is the total found plus the block's sum of joint distances. -/
theorem pay2_apply (x0 x1 : FVec Ideal S16384x63 .f32) (xs : FVec Ideal S1x1 .f32) (y : S1x1.Idx) :
    k0_pay2 (F := Ideal) x0 x1 xs y
      = xs y + rowsSum 16384 (fun r c => x0 (ix2 r c)) (fun r c => x1 (ix2 r c)) := by
  unfold k0_pay2
  dsimp only
  refine (congrFun (shapeCast_self _ shapeCasts_S1x1_S1x1) y).trans ?_
  refine congrArg (xs y + ·) ?_
  refine (broadcast_apply _ y).trans ?_
  refine (extract_apply _).trans ?_
  refine (total_apply _).trans ?_
  refine (sum_shapeCast _ shapeCasts_S16384x21_S1x16384x21).trans ?_
  refine (sum_idx2 _).trans ?_
  unfold rowsSum
  exact Finset.sum_congr rfl fun r _ => Finset.sum_congr rfl fun j _ => dist_apply x0 x1 r j

/-- The zero the first point stores is the number zero. -/
theorem pay1_apply (y : S1x1.Idx) : k0_pay1 (F := Ideal) y = 0 := by
  unfold k0_pay1
  refine (congrFun (shapeCast_self _ shapeCasts_S1x1_S1x1) y).trans ?_
  exact Ideal.ofBits_zero_f32

/-- The body's quotient term is the cell's value divided by the count. -/
theorem pay3_apply (v : FVec Ideal S1x1 .f32) (y : S1x1.Idx) : k0_pay3 (F := Ideal) v y = Ideal.div (v y) count := rfl

end Cert.KernelIdeal.Pay

end
-- ==== Proof.Acc.lean ====
/-
  The kernel's running total across the grid. The scratch cell is carried from one grid point to the next: the
  first point leaves zero plus its block's sum of joint distances, every later point leaves what it found plus
  its own block's sum. By induction on the grid point, after point n the cell holds the running total of the
  block sums 0 … n; and at the last point the output cell receives that total divided by the count.
-/
import proofs.«120796_j60129542194_1_alg».proof.Proof.Pieces
import proofs.«120796_j60129542194_1_alg».proof.Proof.PayIdeal
import proofs.«120796_j60129542194_1_alg».proof.Proof.Spec

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.JointDist

variable (m : (ℓ : Loc nD τ sig) → Buf (Elt Ideal) ℓ)

/-- The sum of joint distances over the two input blocks of grid point `t`. -/
def bsumAt (c : Dev nD) (t : Fin cfg0.N) : EReal :=
  rowsSum 16384 (fun r k => (iblk m c 0 t : Vec Ideal S16384x63 .f32) (ix2 r k))
    (fun r k => (iblk m c 1 t : Vec Ideal S16384x63 .f32) (ix2 r k))

/-- The same indexed by a natural number (zero past the grid). -/
def bsum (c : Dev nD) (n : ℕ) : EReal := if h : n < cfg0.N then bsumAt m c ⟨n, h⟩ else 0

/-- One step of the running total: if the cell held `a`, the body's sum term leaves `a` plus the block's sum. -/
theorem step (X0 X1 : Vec Ideal S16384x63 .f32) (xs : Vec Ideal S1x1 .f32) (a : EReal) (hxs : xs = fun _ => a) :
    k0_pay2 (F := Ideal) X0 X1 xs
      = fun _ => a + rowsSum 16384 (fun r k => X0 (ix2 r k)) (fun r k => X1 (ix2 r k)) := by
  subst hxs
  funext y
  exact Pay.pay2_apply X0 X1 _ y

/-- After grid point `n` the scratch cell holds the running total of the block sums up to `n`. -/
theorem scratch_eq (c : Dev nD) : ∀ (n : ℕ) (h : n < cfg0.N), (outsAt0 m c n h).2 = fun _ => running (bsum m c) n
  | 0, h => by
    have h0 : (⟨0, h⟩ : Fin cfg0.N).val % 64 = 0 := rfl
    have h1 : ¬(⟨0, h⟩ : Fin cfg0.N).val % 64 = 63 := by dsimp only; omega
    refine (congrArg Prod.snd (outsAt0_A m c ⟨0, h⟩ h0 h1)).trans ?_
    refine (Pieces.sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩)).trans ?_
    refine (step (iblk m c 0 ⟨0, h⟩) (iblk m c 1 ⟨0, h⟩) _ 0 (funext fun y => Pay.pay1_apply y)).trans ?_
    funext _
    show _ = 0 + bsum m c 0
    unfold bsum
    rw [dif_pos h]
    rfl
  | n + 1, h => by
    have hN : cfg0.N = 64 := N_0
    have h0 : ¬(⟨n + 1, h⟩ : Fin cfg0.N).val % 64 = 0 := by dsimp only; omega
    have hstep : k0_pay2 (F := Ideal) (iblk m c 0 ⟨n + 1, h⟩) (iblk m c 1 ⟨n + 1, h⟩) (outsAt0 m c n (Nat.lt_of_succ_lt h)).2
        = fun _ => running (bsum m c) (n + 1) := by
      refine (step (iblk m c 0 ⟨n + 1, h⟩) (iblk m c 1 ⟨n + 1, h⟩) _ (running (bsum m c) n) (scratch_eq c n _)).trans ?_
      funext _
      show _ = running (bsum m c) n + bsum m c (n + 1)
      unfold bsum
      rw [dif_pos h]
      rfl
    by_cases h1 : (⟨n + 1, h⟩ : Fin cfg0.N).val % 64 = 63
    · refine (congrArg Prod.snd (outsAt0_C m c ⟨n + 1, h⟩ h0 h1)).trans ?_
      refine (Pieces.sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2).trans ?_
      exact hstep
    · refine (congrArg Prod.snd (outsAt0_B m c ⟨n + 1, h⟩ h0 h1)).trans ?_
      refine (Pieces.sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2).trans ?_
      exact hstep

/-- After the last grid point the output cell holds the final total divided by the count. -/
theorem out_eq (c : Dev nD) (h : 63 < cfg0.N) :
    (outsAt0 m c 63 h).1 = fun _ => Ideal.div (running (bsum m c) 63) count := by
  have h0 : ¬(⟨63, h⟩ : Fin cfg0.N).val % 64 = 0 := by dsimp only; omega
  have h1 : (⟨63, h⟩ : Fin cfg0.N).val % 64 = 63 := rfl
  have hlt : 62 < cfg0.N := Nat.lt_of_succ_lt h
  have e2 : (outsAt0 m c 63 h).2 = k0_pay2 (F := Ideal) (iblk m c 0 ⟨63, h⟩) (iblk m c 1 ⟨63, h⟩) (outsAt0 m c 62 hlt).2 :=
    (congrArg Prod.snd (outsAt0_C m c ⟨63, h⟩ h0 h1)).trans
      (Pieces.sout_C c (grid0.coords ⟨63, h⟩) (ms0_0 ⟨63, h⟩) (hs0_0 ⟨63, h⟩) (ms0_1 ⟨63, h⟩) (hs0_1 ⟨63, h⟩) (ms0_2 ⟨63, h⟩) (hs0_2 ⟨63, h⟩) scM0_0 (Memref.isWhole_whole _) (fun hh => h0 ((hcond0_0 ⟨63, h⟩).mp hh)) ((hcond0_1 ⟨63, h⟩).mpr h1) (iblk m c 0 ⟨63, h⟩) (iblk m c 1 ⟨63, h⟩) (outsAt0 m c 62 hlt).2)
  refine (congrArg Prod.fst (outsAt0_C m c ⟨63, h⟩ h0 h1)).trans ?_
  refine (Pieces.out_C c (grid0.coords ⟨63, h⟩) (ms0_0 ⟨63, h⟩) (hs0_0 ⟨63, h⟩) (ms0_1 ⟨63, h⟩) (hs0_1 ⟨63, h⟩) (ms0_2 ⟨63, h⟩) (hs0_2 ⟨63, h⟩) scM0_0 (Memref.isWhole_whole _) (fun hh => h0 ((hcond0_0 ⟨63, h⟩).mp hh)) ((hcond0_1 ⟨63, h⟩).mpr h1) (iblk m c 0 ⟨63, h⟩) (iblk m c 1 ⟨63, h⟩) (outsAt0 m c 62 hlt).2).trans ?_
  rw [← e2, scratch_eq m c 63 h]
  rfl

end Cert.KernelIdeal.Acc

end
-- ==== Proof.Final.lean ====
/-
  From the last grid point to the program's result. Only the last grid point writes the 1×1 output block back, and
  that block is the whole 1×1 result array, so the array ends holding the final running total divided by the
  count. The one line after the region views that array as a scalar. Together with the arguments, which no window
  writes, this is the kernel's run read as values.
-/
import proofs.«120796_j60129542194_1_alg».proof.Proof.Acc
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.JointDist

variable (m : (ℓ : Loc nD τ sig) → Buf (Elt Ideal) ℓ) (ρ : Dev nD → PrngReg)

/-- The number the kernel computes: the final running total divided by the count. -/
def value (c : Dev nD) : EReal := Ideal.div (running (Acc.bsum m c) 63) count

/-- The region's 1×1 result array holding it. -/
abbrev result (c : Dev nD) : Buf (Elt Ideal) ((c : Thread nD τ).loc main_v0) := fun _ => value m c

theorem h63 : 63 < cfg0.N := by rw [show cfg0.N = 64 from N_0]; decide

/-- The last grid point, the only one whose output block is written back. -/
abbrev t63 : Fin cfg0.N := ⟨63, h63⟩

/-- What the last point writes back is the whole 1×1 result array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h3 : t.val = 63 := by have := (flush0_2 t).mp hf; have := t.isLt; omega
  obtain rfl : t = t63 := Fin.ext h3
  show (cfg0.win 2).cut (grid0.coords t63) ((dats m 0 c).after 2 t63) = _
  rw [after0_2]
  show (cfg0.win 2).cut (grid0.coords t63) (outsAt0 m c 63 h63).1 = _
  rw [Acc.out_eq]
  rfl

/-- So the region's result array ends holding the kernel's value: the last point's block covers it. -/
theorem final (c : Dev nD) : (dats m 0 c).arrAt 2 cfg0.N = result m c :=
  (dats m 0 c).arrAt_eq_of_cover 2 (result m c) (flushed_eq m c) fun i =>
    ⟨t63, (flush0_2 t63).mpr rfl, by
      show i ∈ ((View.whole main_v0).slice (win0_2.rect t63)).set
      rw [View.set_slice_whole, Rect.mem_set_unit]
      intro a
      have h0 : (i 0 : Nat) < 1 := (i 0).isLt
      have h1 : (i 1 : Nat) < 1 := (i 1).isLt
      match a with
      | ⟨0, _⟩ => show win0_2.index t63 0 * win0_2.size 0 ≤ (i 0 : Nat) ∧ (i 0 : Nat) < win0_2.index t63 0 * win0_2.size 0 + win0_2.xsize (grid0.coords t63) 0
                  rw [show win0_2.index t63 0 * win0_2.size 0 = 0 from by decide +kernel, show win0_2.xsize (grid0.coords t63) 0 = 1 from by decide +kernel]; omega
      | ⟨1, _⟩ => show win0_2.index t63 1 * win0_2.size 1 ≤ (i 1 : Nat) ∧ (i 1 : Nat) < win0_2.index t63 1 * win0_2.size 1 + win0_2.xsize (grid0.coords t63) 1
                  rw [show win0_2.index t63 1 * win0_2.size 1 = 0 from by decide +kernel, show win0_2.xsize (grid0.coords t63) 1 = 1 from by decide +kernel]; omega⟩

/-- The line after the region views the 1×1 array as a scalar: the same number. -/
theorem tail_eq (c : Dev nD) :
    Pipeline.afterTail₀ cfgs (dats m) 0 (V0 m) [hostOps1] c main_v1 = fun _ => value m c := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.tc.devRef main_v0)
      = result m c from (Pipeline.withArrays_arr spec0 launch0.win.arr_inj c _ _ 2).trans (final m c)]
  rfl

/-- The scalar result is no array of the region: the lines after the region decide it. -/
theorem v1_rest : main_v1 ∈ Pipeline.restRefs sig (cfgs 0).spec := by decide

/-- The kernel's run, read: the scalar result ends at the kernel's value, the two arguments unchanged. -/
theorem run : θ_run defs (onTc (τ := τ) (main (F := Ideal))) ⟨m, fun _ => 0, ρ⟩ fun r => ∀ c : Dev nD,
      r.2.mem ((c.tc : Thread nD τ).loc main_v1) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.Blocks.lean ====
/-
  From blocks back to the whole arrays. Each input window shows the kernel, at grid point t, rows
  16384 t … 16384 t + 16383 of its argument array, all 63 columns. So the block sum of point t is the sum of joint
  distances over those rows of the two arguments, and the running total after the last point — the sum of the
  64 block sums — is the sum over all 1048576 rows.
-/
import proofs.«120796_j60129542194_1_alg».proof.Proof.Gen.KernelIdeal.Frame
import proofs.«120796_j60129542194_1_alg».proof.Proof.Acc
import proofs.«120796_j60129542194_1_alg».proof.Proof.Spec
import Idealize.ShloMosaic.Lib.Pipeline.Value

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.JointDist

variable (m : (ℓ : Loc nD τ sig) → Buf (Elt Ideal) ℓ)

/-- Both input windows advance one block of rows per grid point and never move along the columns. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- A grid point as a block number. -/
abbrev blk (t : Fin cfg0.N) : Fin 64 := ⟨t.val, lt_of_lt_of_eq t.isLt (show cfg0.N = 64 from N_0)⟩

/-- Row `r` of the first window's block at point `t` is row `16384 t + r` of the first argument array. -/
theorem iblk0_apply (c : Dev nD) (t : Fin cfg0.N) (r : Fin 16384) (k : Fin 63) :
    (iblk m c 0 t : Vec Ideal S16384x63 .f32) (ix2 r k) = m ((c : Thread nD τ).loc main_arg0) (ix2 (brow (blk t) r) k) := by
  unfold iblk
  rw [View.read_apply]
  show V m c main_arg0 _ = m (c.tc.loc main_arg0) _
  unfold V
  refine congrArg _ (funext fun a => Fin.ext ?_)
  match a with
  | ⟨0, _⟩ => show win0_0.index t 0 * 16384 + 1 * r.val = t.val * 16384 + r.val; rw [(index0 t).1]; omega
  | ⟨1, _⟩ => show win0_0.index t 1 * 63 + 1 * k.val = k.val; rw [(index0 t).2]; omega

/-- The same for the second window and the second argument array. -/
theorem iblk1_apply (c : Dev nD) (t : Fin cfg0.N) (r : Fin 16384) (k : Fin 63) :
    (iblk m c 1 t : Vec Ideal S16384x63 .f32) (ix2 r k) = m ((c : Thread nD τ).loc main_arg1) (ix2 (brow (blk t) r) k) := by
  unfold iblk
  rw [View.read_apply]
  show V m c main_arg1 _ = m (c.tc.loc main_arg1) _
  unfold V
  refine congrArg _ (funext fun a => Fin.ext ?_)
  match a with
  | ⟨0, _⟩ => show win0_1.index t 0 * 16384 + 1 * r.val = t.val * 16384 + r.val; rw [(index1 t).1]; omega
  | ⟨1, _⟩ => show win0_1.index t 1 * 63 + 1 * k.val = k.val; rw [(index1 t).2]; omega

/-- The two argument arrays as families of rows. -/
abbrev P (c : Dev nD) : Fin 1048576 → Fin 63 → EReal := fun r k => m ((c : Thread nD τ).loc main_arg0) (ix2 r k)
abbrev Q (c : Dev nD) : Fin 1048576 → Fin 63 → EReal := fun r k => m ((c : Thread nD τ).loc main_arg1) (ix2 r k)

/-- The sum over the blocks of point `t` is the sum over rows `16384 t … 16384 t + 16383` of the argument arrays. -/
theorem bsumAt_eq (c : Dev nD) (t : Fin cfg0.N) :
    Acc.bsumAt m c t = rowsSum 16384 (fun r => P m c (brow (blk t) r)) (fun r => Q m c (brow (blk t) r)) := by
  unfold Acc.bsumAt
  exact congrArg₂ (rowsSum 16384) (funext fun r => funext fun k => iblk0_apply m c t r k)
    (funext fun r => funext fun k => iblk1_apply m c t r k)

/-- The running total after the last point is the sum of all joint distances of the argument arrays. -/
theorem total_eq (c : Dev nD) : running (Acc.bsum m c) 63 = rowsSum 1048576 (P m c) (Q m c) := by
  rw [running_eq_sum, rowsSum_blocks, ← Fin.sum_univ_eq_sum_range (Acc.bsum m c) 64]
  refine Finset.sum_congr rfl fun t _ => ?_
  have ht : t.val < cfg0.N := lt_of_lt_of_eq t.isLt (show 64 = cfg0.N from N_0.symm)
  unfold Acc.bsum
  rw [dif_pos ht]
  exact bsumAt_eq m c ⟨t.val, ht⟩

end Cert.KernelIdeal.Blocks

end
-- ==== Proof.RefValue.lean ====
/-
  The reference program read at the ideal instance. It regroups each row's 63 numbers as 21 joints of 3 (a
  reshape: coordinate k of joint j of row r is column 3 j + k), subtracts, squares, sums each joint's three squares
  from zero, takes square roots, sums all 1048576 × 21 roots from zero, and divides by the count: the loss of the
  two argument arrays.
-/
import proofs.«120796_j60129542194_1_alg».proof.Proof.Gen.ReferenceIdeal.Read
import proofs.«120796_j60129542194_1_alg».proof.Proof.Spec
import Idealize.ShloMosaic.PureOps.Ideal.Laws
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.ReferenceIdeal.Read Cert.JointDist

/-- The reshape 1048576×63 → 1048576×21×3 reads coordinate `k` of joint `j` of row `r` at column `3 j + k`. -/
theorem idx_eq (r : Fin 1048576) (j : Fin 21) (k : Fin 3) :
    idx_main_v0 (idx_main_v4 (ix2 r j) k) = ix2 r (col j k) :=
  funext fun a => Fin.ext (by
    match a with
    | ⟨0, _⟩ => show ((r.val * 21 + j.val) * 3 + k.val) / 63 = r.val; omega
    | ⟨1, _⟩ => show ((r.val * 21 + j.val) * 3 + k.val) % 63 = 3 * j.val + k.val; omega)

/-- The reference's per-joint sum of squares. -/
theorem v4_apply (x0 x1 : FVec Ideal S1048576x63 .f32) (r : Fin 1048576) (j : Fin 21) :
    val_main_v4 (F := Ideal) x0 x1 (ix2 r j) = ∑ k : Fin 3, sqd (x0 (ix2 r (col j k))) (x1 (ix2 r (col j k))) := by
  refine (val_main_v4_apply x0 x1 (ix2 r j)).trans ?_
  refine (congrArg (· + _) (Ideal.ofBits_zero_f32)).trans ?_
  refine (zero_add _).trans ?_
  refine Finset.sum_congr rfl fun k _ => ?_
  show sqd (val_main_v0 (F := Ideal) x0 (idx_main_v4 (ix2 r j) k)) (val_main_v1 (F := Ideal) x1 (idx_main_v4 (ix2 r j) k)) = _
  rw [val_main_v0_apply, val_main_v1_apply]
  show sqd (x0 (idx_main_v0 (idx_main_v4 (ix2 r j) k))) (x1 (idx_main_v0 (idx_main_v4 (ix2 r j) k))) = _
  rw [idx_eq]

/-- The host square root, read at an index. -/
theorem hsqrt_apply {s : Shape} (V : FVec Ideal s .f32) (i : s.Idx) : Host.sqrt (F := Ideal) V i = Ideal.sqrt (V i) := rfl

/-- The reference's per-joint distance. -/
theorem v5_apply (x0 x1 : FVec Ideal S1048576x63 .f32) (r : Fin 1048576) (j : Fin 21) :
    val_main_v5 (F := Ideal) x0 x1 (ix2 r j) = joint (fun c => x0 (ix2 r c)) (fun c => x1 (ix2 r c)) j := by
  unfold val_main_v5
  refine (hsqrt_apply _ _).trans ?_
  rw [v4_apply]
  rfl

/-- The reference computes the loss of its two argument arrays. -/
theorem ref_eq (x0 x1 : FVec Ideal S1048576x63 .f32) (i : S_.Idx) :
    val_main_v7 (F := Ideal) x0 x1 i = loss (fun r c => x0 (ix2 r c)) (fun r c => x1 (ix2 r c)) := by
  show Ideal.div (val_main_v6 (F := Ideal) x0 x1 i) count = _
  unfold loss
  refine congrArg (Ideal.div · count) ?_
  refine (val_main_v6_apply x0 x1 i).trans ?_
  refine (congrArg (· + _) (Ideal.ofBits_zero_f32)).trans ?_
  refine (zero_add _).trans ?_
  refine (sum_idx2 _).trans ?_
  unfold rowsSum
  exact Finset.sum_congr rfl fun r _ => Finset.sum_congr rfl fun j _ => v5_apply x0 x1 r j

end Cert.ReferenceIdeal.RefValue

end
-- ==== Proof.lean ====
/-
  The mean per-joint Euclidean distance between two arrays of 1048576 rows × 63 columns (21 joints × 3
  coordinates), computed two ways.

  The kernel streams the arrays through a grid of 64 blocks of 16384 rows. At each grid point it subtracts the two
  blocks, squares, sums each joint's three squares, takes square roots, sums all of the block's roots into one
  number and adds it to a running total kept in a one-element scratch cell (zeroed at the first point); at the
  last point it divides the total by 1048576 · 21 and writes the quotient out. The reference reshapes both arrays
  to rows × 21 × 3, subtracts, squares, sums over the last axis, takes square roots, sums everything and divides by
  the same constant.

  On the extended reals both are (∑ over rows and joints of √(∑ over the joint's 3 coordinates of (p − q)²))
  divided by the same constant word: the kernel's total is the same sum grouped by blocks of rows and accumulated
  block by block from zero, and addition of extended reals is commutative and associative, so no finiteness of the
  inputs is needed. The square root and the quotient are one function on both sides, and the divisor is the same
  float word, never evaluated.

  The modules: Spec (the mathematics and the regrouping of the sum), Pieces (what one run of the body leaves in
  the scratch and output cells), PayIdeal (the body's arithmetic at an index), Acc (the induction over grid points),
  Blocks (a window's block is a range of rows of its array), Final (the result array, the scalar after the region,
  the kernel's run), RefValue (the reference's term is the loss).
-/
import proofs.«120796_j60129542194_1_alg».proof.Defs
import proofs.«120796_j60129542194_1_alg».proof.Proof.Gen.Kernel
import proofs.«120796_j60129542194_1_alg».proof.Proof.Gen.Kernel.Skeleton
import proofs.«120796_j60129542194_1_alg».proof.Proof.Gen.Kernel.Launch
import proofs.«120796_j60129542194_1_alg».proof.Proof.Gen.Kernel.Points
import proofs.«120796_j60129542194_1_alg».proof.Proof.Gen.Kernel.Frame
import proofs.«120796_j60129542194_1_alg».proof.Proof.Gen.KernelIdeal
import proofs.«120796_j60129542194_1_alg».proof.Proof.Gen.KernelIdeal.Skeleton
import proofs.«120796_j60129542194_1_alg».proof.Proof.Gen.KernelIdeal.Launch
import proofs.«120796_j60129542194_1_alg».proof.Proof.Gen.KernelIdeal.Points
import proofs.«120796_j60129542194_1_alg».proof.Proof.Gen.KernelIdeal.Frame
import proofs.«120796_j60129542194_1_alg».proof.Proof.Gen.ReferenceIdeal
import proofs.«120796_j60129542194_1_alg».proof.Proof.Gen.ReferenceIdeal.Run
import proofs.«120796_j60129542194_1_alg».proof.Proof.Gen.ReferenceIdeal.Read
import proofs.«120796_j60129542194_1_alg».proof.Proof.Gen.Pre_finite_inputs
import proofs.«120796_j60129542194_1_alg».proof.Proof.Final
import proofs.«120796_j60129542194_1_alg».proof.Proof.Blocks
import proofs.«120796_j60129542194_1_alg».proof.Proof.RefValue
import Idealize.ShloMosaic.Adequacy
import Idealize.ShloMosaic.Init

noncomputable section

namespace Cert.Proof

open Idealize.ShloMosaic Idealize.SL.Sem

/-- The kernel as printed runs, faults nowhere and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss of the argument arrays: the kernel at its final running total divided by the
    count, which is the sum over all rows regrouped by blocks; the reference at the same sum taken at once. -/
theorem algebraic : Cert.algebraic_KernelIdeal_ReferenceIdeal := by
  intro m ρ m' ρ' _ hagree
  refine ⟨fun c => fun _ => Cert.KernelIdeal.Final.value m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  funext i
  rw [Cert.ReferenceIdeal.RefValue.ref_eq, (hagree c).1, (hagree c).2]
  show Cert.JointDist.loss _ _ = Cert.KernelIdeal.Final.value m c
  unfold Cert.KernelIdeal.Final.value Cert.JointDist.loss
  rw [Cert.KernelIdeal.Blocks.total_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
